-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S4x2048x4096 .f32) (main_arg1 : IVec S4096x4096 32) (main_arg2 : IVec S4096x4096 32) (main_arg3 : FVec F S4096 .f32) (main_arg4 : FVec F S4096 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096 .f32 := Host.absf main_arg3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S4x2048x4096 : Shape := ⟨3, ![4, 2048, 4096]⟩
abbrev S4096x4096 : Shape := ⟨2, ![4096, 4096]⟩
abbrev S4096 : Shape := ⟨1, ![4096]⟩
abbrev S8192x4096 : Shape := ⟨2, ![8192, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 22
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x4096, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S8192x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S1x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S1x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .bf16⟩
  | .hbm, ⟨19, _⟩ => ⟨S1x4096, .f32⟩
  | .hbm, ⟨20, _⟩ => ⟨S8192x4096, .f32⟩
  | .hbm, ⟨21, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  transposes_S4096x4096_S4096x4096_1_0 : S4096x4096.Transposes [1, 0] S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bitsLt_bf16_f32 : FTy.bits .bf16 < FTy.bits .f32
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S4096 : Shape := ⟨1, ![4096]⟩
abbrev S1x1x4096 : Shape := ⟨3, ![1, 1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .i32⟩
  | .hbm, ⟨2, _⟩ => ⟨S4096x4096, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096x4096, .f32⟩
  | .hbm, ⟨7, _⟩ => ⟨S4096x4096, .f32⟩
  | .hbm, ⟨8, _⟩ => ⟨S4x2048x4096, .f32⟩
  | .hbm, ⟨9, _⟩ => ⟨S4x2048x4096, .f32⟩
  | .hbm, ⟨10, _⟩ => ⟨S1x1x4096, .f32⟩
  | .hbm, ⟨11, _⟩ => ⟨S4x2048x4096, .f32⟩
  | .hbm, ⟨12, _⟩ => ⟨S4x2048x4096, .f32⟩
  | .hbm, ⟨13, _⟩ => ⟨S1x1x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  dot_S4x2048x4096_S4096x4096_S4x2048x4096_2_1_01_0_n_n_wf : DotDims.WF S4x2048x4096 S4096x4096 S4x2048x4096 [2] [1] [0, 1] [0] [] []

variable [Facts₀]

def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.Spec.lean ====
/-
  The mathematics shared by the two programs, with no program in sight.

  Write `f₁ o d`, `f₂ o d` for the two integer planes read as reals, `x b s d` for the activations, `a₁ o`, `a₂ o` for the
  per-column scales and `β o` for the bias. The reference computes, at `(b, s, o)`,

      `((∑ d, x b s d · f₁ o d) · a₁ o + (∑ d, x b s d · f₂ o d) · a₂ o) + β o`   (`refValue`),

  and the kernel, which first combines the planes into one weight `w d o = f₁ o d · a₁ o + f₂ o d · a₂ o` and then
  contracts in four consecutive chunks of 1024,

      `(0 + ∑ k < 4, ∑ e < 1024, x b s (1024 k + e) · w (1024 k + e) o) + β o`   (`kerValue`).

  Joining the four chunks into one sum over `d < 4096` uses only that addition is commutative and associative. Moving the
  scales `a₁ o`, `a₂ o` out of the sum is distributivity, which on the extended reals holds for REAL numbers and fails at
  the infinities: this is where the finiteness of `x`, `a₁`, `a₂` is used (the integer planes are real by construction).
-/
import Idealize.ShloMosaic.PureOps.Ideal
import Idealize.ShloMosaic.Lib.ValueIdx

noncomputable section

namespace Cert.Spec

open Idealize.ShloMosaic Idealize.ShloMosaic.ValueIdx

/-- The coercion of the reals into the extended reals commutes with finite sums. -/
theorem coe_sum {ι : Type*} (s : Finset ι) (g : ι → ℝ) : ((∑ d ∈ s, g d : ℝ) : EReal) = ∑ d ∈ s, (g d : EReal) := by
  classical
  induction s using Finset.induction_on with
  | empty => simp
  | insert a s ha ih => rw [Finset.sum_insert ha, Finset.sum_insert ha, EReal.coe_add, ih]

/-- Distributivity over a finite sum, for real numbers inside the extended reals: a weight that is a combination
    `f₁ · a₁ + f₂ · a₂` contracts to the same combination of the two separate contractions. -/
theorem sum_mul_combination {ι : Type*} [Fintype ι] (x f₁ f₂ : ι → ℝ) (a₁ a₂ : ℝ) :
    ∑ d, (x d : EReal) * ((f₁ d : EReal) * (a₁ : EReal) + (f₂ d : EReal) * (a₂ : EReal))
      = (∑ d, (x d : EReal) * (f₁ d : EReal)) * (a₁ : EReal) + (∑ d, (x d : EReal) * (f₂ d : EReal)) * (a₂ : EReal) := by
  simp only [← EReal.coe_mul, ← EReal.coe_add, ← coe_sum]
  congr 1
  rw [Finset.sum_mul, Finset.sum_mul, ← Finset.sum_add_distrib]
  exact Finset.sum_congr rfl fun d _ => by ring

/-- Position `1024 k + e` of the contracted axis: chunk `k`, offset `e`. -/
def chunkIdx (k : Fin 4) (e : Fin 1024) : Fin 4096 := ⟨1024 * k.val + e.val, by have := k.isLt; have := e.isLt; omega⟩

/-- Four consecutive chunks of 1024 are the whole axis of 4096. -/
theorem sum_chunks {M : Type*} [AddCommMonoid M] (g : Fin 4096 → M) :
    ∑ k : Fin 4, ∑ e : Fin 1024, g (chunkIdx k e) = ∑ d : Fin 4096, g d := by
  rw [← Fintype.sum_prod_type (f := fun p : Fin 4 × Fin 1024 => g (chunkIdx p.1 p.2))]
  refine Fintype.sum_equiv (finProdFinEquiv (m := 4) (n := 1024)) _ _ fun p => ?_
  congr 1
  apply Fin.ext
  show 1024 * p.1.val + p.2.val = p.2.val + 1024 * p.1.val
  omega

/-- An integer word read as an extended real. -/
abbrev ofInt (w : BitVec 32) : EReal := ((w.toInt : ℝ) : EReal)

/-- The reference's value at `(b, s, o)`. -/
def refValue (x : (⟨3, ![4, 2048, 4096]⟩ : Shape).Idx → EReal) (t₁ t₂ : (⟨2, ![4096, 4096]⟩ : Shape).Idx → BitVec 32)
    (a₁ a₂ β : (⟨1, ![4096]⟩ : Shape).Idx → EReal) (b : Fin 4) (s : Fin 2048) (o : Fin 4096) : EReal :=
  ((∑ d : Fin 4096, x (ix3 b s d) * ofInt (t₁ (ix2 o d))) * a₁ (ix1 o)
    + (∑ d : Fin 4096, x (ix3 b s d) * ofInt (t₂ (ix2 o d))) * a₂ (ix1 o)) + β (ix1 o)

/-- The kernel's value at `(b, s, o)`: the combined weight contracted chunk by chunk, from zero, then the bias. -/
def kerValue (x : (⟨3, ![4, 2048, 4096]⟩ : Shape).Idx → EReal) (t₁ t₂ : (⟨2, ![4096, 4096]⟩ : Shape).Idx → BitVec 32)
    (a₁ a₂ β : (⟨1, ![4096]⟩ : Shape).Idx → EReal) (b : Fin 4) (s : Fin 2048) (o : Fin 4096) : EReal :=
  (0 + ∑ k : Fin 4, ∑ e : Fin 1024, x (ix3 b s (chunkIdx k e))
      * (ofInt (t₁ (ix2 o (chunkIdx k e))) * a₁ (ix1 o) + ofInt (t₂ (ix2 o (chunkIdx k e))) * a₂ (ix1 o))) + β (ix1 o)

/-- For finite activations and scales the two values agree. -/
theorem kerValue_eq_refValue (x : (⟨3, ![4, 2048, 4096]⟩ : Shape).Idx → EReal) (t₁ t₂ : (⟨2, ![4096, 4096]⟩ : Shape).Idx → BitVec 32)
    (a₁ a₂ β : (⟨1, ![4096]⟩ : Shape).Idx → EReal)
    (hx : ∀ i, ∃ r : ℝ, x i = (r : EReal)) (h₁ : ∀ i, ∃ r : ℝ, a₁ i = (r : EReal)) (h₂ : ∀ i, ∃ r : ℝ, a₂ i = (r : EReal))
    (b : Fin 4) (s : Fin 2048) (o : Fin 4096) :
    kerValue x t₁ t₂ a₁ a₂ β b s o = refValue x t₁ t₂ a₁ a₂ β b s o := by
  unfold kerValue refValue
  rw [zero_add, sum_chunks (fun d => x (ix3 b s d) * (ofInt (t₁ (ix2 o d)) * a₁ (ix1 o) + ofInt (t₂ (ix2 o d)) * a₂ (ix1 o)))]
  choose xr hxr using hx
  obtain ⟨r₁, e₁⟩ := h₁ (ix1 o)
  obtain ⟨r₂, e₂⟩ := h₂ (ix1 o)
  rw [e₁, e₂]
  simp only [hxr]
  rw [sum_mul_combination (fun d => xr (ix3 b s d)) (fun d => ((t₁ (ix2 o d)).toInt : ℝ)) (fun d => ((t₂ (ix2 o d)).toInt : ℝ)) r₁ r₂]

/-- The reference's value as one function of the result's index. -/
def refArray (x : (⟨3, ![4, 2048, 4096]⟩ : Shape).Idx → EReal) (t₁ t₂ : (⟨2, ![4096, 4096]⟩ : Shape).Idx → BitVec 32)
    (a₁ a₂ β : (⟨1, ![4096]⟩ : Shape).Idx → EReal) : (⟨3, ![4, 2048, 4096]⟩ : Shape).Idx → EReal :=
  fun i => refValue x t₁ t₂ a₁ a₂ β (i 0) (i 1) (i 2)

theorem refArray_ix3 (x : (⟨3, ![4, 2048, 4096]⟩ : Shape).Idx → EReal) (t₁ t₂ : (⟨2, ![4096, 4096]⟩ : Shape).Idx → BitVec 32)
    (a₁ a₂ β : (⟨1, ![4096]⟩ : Shape).Idx → EReal) (b : Fin 4) (s : Fin 2048) (o : Fin 4096) :
    refArray x t₁ t₂ a₁ a₂ β (ix3 b s o) = refValue x t₁ t₂ a₁ a₂ β b s o := rfl

end Cert.Spec

end
-- ==== Proof.Finite.lean ====
/-
  The precondition, decoded: it is the conjunction of four `all(|v| < +∞)` tests, one for each float argument, so under it
  every entry of the activations, of the two scale vectors and of the bias is a real number (an extended real whose absolute
  value is below `+∞` is neither infinity).
-/
import proofs.«166467_j62989990363233_2_alg».proof.Pre_finite_inputs
import Idealize.ShloMosaic.PureOps.Ideal.Laws
import Idealize.ShloMosaic.Lib.ReduceAll
import Idealize.ShloMosaic.Lib.ValueIdx

noncomputable section

namespace Cert.Finite

open Idealize.ShloMosaic Cert.Pre_finite_inputs

instance : Subsingleton S_.Idx := ⟨fun a b => funext fun d => d.elim0⟩

/-- The word the tests compare against is `+∞`. -/
theorem inf_word : Ideal.ofBits .f32 0x7F800000#32 = (⊤ : EReal) := by
  simp [Ideal.ofBits, Ideal.ieee]

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element test read back. -/
theorem real_of_test (x : EReal) (h : FloatOps.cmpf (F := Ideal) (φ := .f32) .olt (FloatOps.absf (F := Ideal) (φ := .f32) x) (Ideal.ofBits .f32 0x7F800000#32) = 1#1) :
    ∃ r : ℝ, x = (r : EReal) := by
  rw [Ideal.cmpf_def, Ideal.absf_def, inf_word] at h
  refine real_of_abs_lt_top x ?_
  unfold Ideal.cmp at h
  by_contra hn
  simp [hn] at h

variable [Cert.Pre_finite_inputs.Facts]

theorem finite_of_pre (x : FVec Ideal S4x2048x4096 .f32) (t₁ t₂ : IVec S4096x4096 32) (a₁ a₂ β : FVec Ideal S4096 .f32)
    (h : Cert.Pre_finite_inputs.fn (F := Ideal) x t₁ t₂ a₁ a₂ β = fun _ => 1#1) :
    (∀ i, ∃ r : ℝ, x i = (r : EReal)) ∧ (∀ i, ∃ r : ℝ, a₁ i = (r : EReal)) ∧ (∀ i, ∃ r : ℝ, a₂ i = (r : EReal))
      ∧ (∀ i, ∃ r : ℝ, β i = (r : EReal)) := by
  have h0 := congrFun h ValueIdx.ix0
  dsimp only [Cert.Pre_finite_inputs.fn, Cert.Pre_finite_inputs.fn_part1] at h0
  obtain ⟨h123, h4⟩ := IntOp.andi_eq_one.1 h0
  obtain ⟨h12, h3⟩ := IntOp.andi_eq_one.1 h123
  obtain ⟨h1, h2⟩ := IntOp.andi_eq_one.1 h12
  exact ⟨fun i => real_of_test (x i) (Host.reduce_andi_all _ _ _ _ _ h1 i),
    fun i => real_of_test (a₁ i) (Host.reduce_andi_all _ _ _ _ _ h2 i),
    fun i => real_of_test (a₂ i) (Host.reduce_andi_all _ _ _ _ _ h3 i),
    fun i => real_of_test (β i) (Host.reduce_andi_all _ _ _ _ _ h4 i)⟩

end Cert.Finite

end
-- ==== Proof.RefValue.lean ====
/-
  The reference program's result, read index by index: at `(b, s, o)` it is the two contractions of the activations with the
  integer planes (read as reals), each scaled by its column's scale, added, plus the column's bias — `Spec.refArray`.
  Both contractions run over the last axis of the activations and the SECOND axis of a plane (`od`), so the plane is read
  at `(o, d)`; the three one-dimensional operands are broadcast along the last axis of the result.
-/
import proofs.«166467_j62989990363233_2_alg».proof.Proof.Gen.ReferenceIdeal.Read
import proofs.«166467_j62989990363233_2_alg».proof.Proof.Spec

noncomputable section

namespace Cert.ReferenceIdeal.RefValue

open Cert.ReferenceIdeal Cert.ReferenceIdeal.Read Idealize.ShloMosaic Idealize.ShloMosaic.ValueIdx

theorem result_eq (x0 : (⟨S4x2048x4096, .f32⟩ : BufTy).Contents (Elt Ideal)) (x1 x2 : (⟨S4096x4096, .i32⟩ : BufTy).Contents (Elt Ideal))
    (x3 x4 x5 : (⟨S4096, .f32⟩ : BufTy).Contents (Elt Ideal)) :
    val_main_v13 (F := Ideal) x0 x1 x2 x3 x4 x5 = Cert.Spec.refArray x0 x1 x2 x3 x4 x5 := by
  funext i
  obtain ⟨b, s, o, rfl⟩ : ∃ (b : Fin 4) (s : Fin 2048) (o : Fin 4096), i = ix3 b s o := ⟨i 0, i 1, i 2, eq_ix3 i⟩
  rw [val_main_v13_apply, val_main_v10_apply, val_main_v6_apply, val_main_v9_apply, val_main_v2_apply, val_main_v3_apply,
    val_main_v5_apply, val_main_v4_apply, val_main_v8_apply, val_main_v7_apply, val_main_v12_apply, val_main_v11_apply]
  have el2 : ∀ k : Fin 4096, lidx_main_v2 (ix3 b s o) k = ix3 b s k := fun k =>
    funext fun a => Fin.ext (by match a with | ⟨0, _⟩ => rfl | ⟨1, _⟩ => rfl | ⟨2, _⟩ => rfl)
  have er2 : ∀ k : Fin 4096, ridx_main_v2 (ix3 b s o) k = ix2 o k := fun k =>
    funext fun a => Fin.ext (by match a with | ⟨0, _⟩ => rfl | ⟨1, _⟩ => rfl)
  have el3 : ∀ k : Fin 4096, lidx_main_v3 (ix3 b s o) k = ix3 b s k := fun k =>
    funext fun a => Fin.ext (by match a with | ⟨0, _⟩ => rfl | ⟨1, _⟩ => rfl | ⟨2, _⟩ => rfl)
  have er3 : ∀ k : Fin 4096, ridx_main_v3 (ix3 b s o) k = ix2 o k := fun k =>
    funext fun a => Fin.ext (by match a with | ⟨0, _⟩ => rfl | ⟨1, _⟩ => rfl)
  have e3 : idx_main_v4 (idx_main_v5 (ix3 b s o)) = ix1 o :=
    funext fun a => Fin.ext (by match a with | ⟨0, _⟩ => rfl)
  have e4 : idx_main_v7 (idx_main_v8 (ix3 b s o)) = ix1 o :=
    funext fun a => Fin.ext (by match a with | ⟨0, _⟩ => rfl)
  have e5 : idx_main_v11 (idx_main_v12 (ix3 b s o)) = ix1 o :=
    funext fun a => Fin.ext (by match a with | ⟨0, _⟩ => rfl)
  simp only [val_main_v0_apply, val_main_v1_apply, Ideal.addf_def, Ideal.mulf_def, el2, er2, el3, er3, e3, e4, e5]
  rfl

end Cert.ReferenceIdeal.RefValue

end
-- ==== Proof.Cases.lean ====
/-
  What one run of the kernel body leaves behind, case by case, as pure terms of what it loaded.

  The body keeps a running block `acc` in a scratch buffer that survives from one grid point to the next.
  At a point whose innermost coordinate is 0 it first overwrites `acc` with zeros; at every point it then
  replaces `acc` by `acc + x ⬝ w` (the product of the point's two input blocks); and at a point whose
  innermost coordinate is 3 it finally stores `acc + bias` (the bias row repeated down the rows) into the output block.
  So the scratch ends at `0 + x ⬝ w` in the first case and at `acc + x ⬝ w` in the other two, and the
  output block, in the last case, at `(acc + x ⬝ w) + bias`.
-/
import proofs.«166467_j62989990363233_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Cases

open Cert.KernelIdeal Cert.KernelIdeal.Gen

variable {F : FTy → Type} [FloatOps F]

theorem origin2 : (![0, 0] : Fin 2 → Nat) = fun _ => 0 := funext fun a => by fin_cases a <;> rfl

/-- First case (innermost coordinate 0): the scratch is zeroed, read back, and left at `0 + x ⬝ w`. -/
theorem scratch_first (c : Dev nD) (i : grid0.Coords) (arg3 : Memref sig .tc .vmem S1024x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : cond0_0 i) (hc1 : ¬cond0_1 i)
    (x0 : Vec F S1024x1024 .f32) (x1 : Vec F S1024x1024 .bf16) (x2 : Vec F S1x1024 .f32) :
    sout0_A_0 c i arg3 harg3 arg4 harg4 arg5 harg5 arg6 harg6 arg7 harg7 hc0 hc1 x0 x1 x2 = k0_pay2 x0 (k0_pay1 (F := F)) x1 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) origin2, View.readCov_unit_zero (S := S1024x1024) _ origin2]
  simp only [View.readAt_eq_ld, harg3.read_unread, harg4.read_unread, View.ld_unit_zero (S := S1024x1024) origin2]

/-- Middle case (innermost coordinate 1 or 2): the scratch, found at `acc`, is left at `acc + x ⬝ w`. -/
theorem scratch_middle (c : Dev nD) (i : grid0.Coords) (arg3 : Memref sig .tc .vmem S1024x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond0_0 i) (hc1 : ¬cond0_1 i)
    (x0 : Vec F S1024x1024 .f32) (x1 : Vec F S1024x1024 .bf16) (x2 : Vec F S1x1024 .f32) (acc : Vec F S1024x1024 .f32) :
    sout0_B_0 c i arg3 harg3 arg4 harg4 arg5 harg5 arg6 harg6 arg7 harg7 hc0 hc1 x0 x1 x2 acc = k0_pay2 x0 acc x1 := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  sl_unfold_words
  rw [View.canon_unit_zero origin2]
  simp only [View.readAt_eq_ld, harg3.read_unread, harg4.read_unread, harg7.read_unread, View.ld_unit_zero (S := S1024x1024) origin2]

/-- Last case (innermost coordinate 3): the scratch, found at `acc`, is again left at `acc + x ⬝ w`. -/
theorem scratch_last (c : Dev nD) (i : grid0.Coords) (arg3 : Memref sig .tc .vmem S1024x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond0_0 i) (hc1 : cond0_1 i)
    (x0 : Vec F S1024x1024 .f32) (x1 : Vec F S1024x1024 .bf16) (x2 : Vec F S1x1024 .f32) (acc : Vec F S1024x1024 .f32) :
    sout0_C_0 c i arg3 harg3 arg4 harg4 arg5 harg5 arg6 harg6 arg7 harg7 hc0 hc1 x0 x1 x2 acc = k0_pay2 x0 acc x1 := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  rw [View.canon_unit_zero origin2]
  simp only [View.readAt_eq_ld, harg3.read_unread, harg4.read_unread, harg7.read_unread, View.ld_unit_zero (S := S1024x1024) origin2]

/-- Last case: the output block is stored once, at the updated scratch plus the bias row. -/
theorem output_last (c : Dev nD) (i : grid0.Coords) (arg3 : Memref sig .tc .vmem S1024x1024 .f32) (harg3 : arg3.IsWhole)
    (arg4 : Memref sig .tc .vmem S1024x1024 .bf16) (harg4 : arg4.IsWhole) (arg5 : Memref sig .tc .vmem S1x1024 .f32) (harg5 : arg5.IsWhole)
    (arg6 : Memref sig .tc .vmem S1024x1024 .f32) (harg6 : arg6.IsWhole) (arg7 : Memref sig .tc .vmem S1024x1024 .f32) (harg7 : arg7.IsWhole)
    (hc0 : ¬cond0_0 i) (hc1 : cond0_1 i)
    (x0 : Vec F S1024x1024 .f32) (x1 : Vec F S1024x1024 .bf16) (x2 : Vec F S1x1024 .f32) (acc : Vec F S1024x1024 .f32) :
    out0_C_3 c i arg3 harg3 arg4 harg4 arg5 harg5 arg6 harg6 arg7 harg7 hc0 hc1 x0 x1 x2 acc = k0_pay3 (k0_pay2 x0 acc x1) x2 := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  rw [View.canon_unit_zero origin2, View.readCov_unit_zero (S := S1024x1024) _ origin2]
  simp only [View.readAt_eq_ld, harg3.read_unread, harg4.read_unread, harg5.read_unread, harg7.read_unread,
    View.ld_unit_zero (S := S1024x1024) origin2, View.ld_unit_zero (S := S1x1024) origin2]

end Cert.KernelIdeal.Cases

end
-- ==== Proof.Payload.lean ====
/-
  The body's three stored values on the extended reals, entry by entry. A change of float format is the identity there
  and a matrix product into a zero accumulator is the plain sum of products, so at row `r`, column `q` of a block:
    the reset value is `0`;
    the update is `acc r q + ∑ e, x r e · w e q`  (the contraction pairs the LAST axis of `x` with the FIRST of `w`);
    the stored output is `v r q + bias 0 q`          (the one bias row is repeated down the rows).
-/
import proofs.«166467_j62989990363233_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The reset value is zero everywhere. -/
theorem reset_apply (j : S1024x1024.Idx) : k0_pay1 (F := Ideal) j = 0 := by
  unfold k0_pay1
  simp only [shapeCast_self]
  show Ideal.ofBits .f32 0x00000000#32 = 0
  exact Ideal.ofBits_zero_f32

theorem lhs_row (i : S1024x1024.Idx) (q : dot_S1024x1024_S1024x1024_S1024x1024_1_0_0_1_n_n.contr.Idx) : (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_col (i : S1024x1024.Idx) (q : dot_S1024x1024_S1024x1024_S1024x1024_1_0_0_1_n_n.contr.Idx) : (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_row (i : S1024x1024.Idx) (q : dot_S1024x1024_S1024x1024_S1024x1024_1_0_0_1_n_n.contr.Idx) : (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_col (i : S1024x1024.Idx) (q : dot_S1024x1024_S1024x1024_S1024x1024_1_0_0_1_n_n.contr.Idx) : (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The update: the accumulator plus the row of `x` against the column of `w`. -/
theorem update_apply (x acc : Vec Ideal S1024x1024 .f32) (w : Vec Ideal S1024x1024 .bf16) (r q : Fin 1024) :
    k0_pay2 (F := Ideal) x acc w (ix2 r q) = acc (ix2 r q) + ∑ e : Fin 1024, x (ix2 r e) * w (ix2 e q) := by
  unfold k0_pay2
  simp only [shapeCast_self]
  rw [addf_apply]
  congr 1
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 r q) ((ValueIdx.contrEquiv1 dot_S1024x1024_S1024x1024_S1024x1024_1_0_0_1_n_n 1024 rfl rfl).symm k) = ix2 r k := funext fun a => Fin.ext (by
    match a with
    | ⟨0, _⟩ => exact lhs_row _ _
    | ⟨1, _⟩ => exact (lhs_col _ _).trans hk)
  have er : dot_S1024x1024_S1024x1024_S1024x1024_1_0_0_1_n_n.rhsIdx (ix2 r q) ((ValueIdx.contrEquiv1 dot_S1024x1024_S1024x1024_S1024x1024_1_0_0_1_n_n 1024 rfl rfl).symm k) = ix2 k q := funext fun a => Fin.ext (by
    match a with
    | ⟨0, _⟩ => exact (rhs_row _ _).trans hk
    | ⟨1, _⟩ => exact rhs_col _ _)
  rw [el, er]
  rfl

/-- The stored output: the value plus the bias row's entry of the same column. -/
theorem output_apply (v : Vec Ideal S1024x1024 .f32) (bias : Vec Ideal S1x1024 .f32) (r q : Fin 1024) :
    k0_pay3 (F := Ideal) v bias (ix2 r q) = v (ix2 r q) + bias (ix2 (0 : Fin 1) q) := by
  unfold k0_pay3
  simp only [shapeCast_self]
  rw [addf_apply, broadcastTo_1b_ab_apply]

end Cert.KernelIdeal.Payload

end
-- ==== Proof.Fold.lean ====
/-
  The running block the kernel carries from grid point to grid point, as a sum.

  The grid is `8 × 4 × 4` with the last coordinate fastest, so point `n` has coordinates `(n / 16, n / 4 % 4, n % 4)`:
  it reads rows `1024 (n / 16) …` of the flattened activations against chunk `n % 4` of the contracted axis, that chunk of
  the weight against columns `1024 (n / 4 % 4) …`, and the bias row at those columns. The scratch is reset where
  `n % 4 = 0` and updated everywhere, so after point `n` it holds the sum of the products of the points
  `4 (n / 4), …, n` of its run; where `n % 4 = 3` the whole run's sum, plus the bias, is what the point stores.
-/
import proofs.«166467_j62989990363233_2_alg».proof.Proof.Cases
import proofs.«166467_j62989990363233_2_alg».proof.Proof.Payload

set_option maxRecDepth 16384

noncomputable section

namespace Cert.KernelIdeal.Fold

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- Row `1024 (n / 16) + r` of the flattened activations and of the result: point `n`'s row block. -/
def rowAt (n : ℕ) (r : Fin 1024) : Fin 8192 := ⟨1024 * (n / 16 % 8) + r.val, by have := r.isLt; omega⟩
/-- Position `1024 (n % 4) + e` of the contracted axis: point `n`'s chunk. -/
def midAt (n : ℕ) (e : Fin 1024) : Fin 4096 := ⟨1024 * (n % 4) + e.val, by have := e.isLt; omega⟩
/-- Column `1024 (n / 4 % 4) + q` of the weight, the bias and the result: point `n`'s column block. -/
def colAt (n : ℕ) (q : Fin 1024) : Fin 4096 := ⟨1024 * (n / 4 % 4) + q.val, by have := q.isLt; omega⟩

/-- The four index maps in closed form, decided over the 128 grid points. -/
theorem index_facts : ∀ t : Fin cfg0.N,
    win0_0.index t (0 : Fin 2) = t.val / 16 % 8 ∧ win0_0.index t (1 : Fin 2) = t.val % 4
    ∧ win0_1.index t (0 : Fin 2) = t.val % 4 ∧ win0_1.index t (1 : Fin 2) = t.val / 4 % 4
    ∧ win0_2.index t (0 : Fin 2) = 0 ∧ win0_2.index t (1 : Fin 2) = t.val / 4 % 4
    ∧ win0_3.index t (0 : Fin 2) = t.val / 16 % 8 ∧ win0_3.index t (1 : Fin 2) = t.val / 4 % 4 :=
  (by decide +kernel : ∀ t : Fin grid0.N, _)

/-- Point `n`'s block of the flattened activations, of the weight, and of the bias row, as the pipeline finds the arrays. -/
def blockX (c : Dev nD) (n : ℕ) : S1024x1024.Idx → EReal :=
  fun j => (V m c main_v0 : S8192x4096.Idx → EReal) (ix2 (rowAt n (j 0)) (midAt n (j 1)))
def blockW (c : Dev nD) (n : ℕ) : S1024x1024.Idx → EReal :=
  fun j => (V m c main_v12 : S4096x4096.Idx → EReal) (ix2 (midAt n (j 0)) (colAt n (j 1)))
def blockB (c : Dev nD) (n : ℕ) : S1x1024.Idx → EReal :=
  fun j => (V m c main_v13 : S1x4096.Idx → EReal) (ix2 (0 : Fin 1) (colAt n (j 1)))

/-- The block the first window stages at point `t`: a block's coordinate is block index × block size + offset. -/
theorem iblk_x (c : Dev nD) (t : Fin cfg0.N) : (iblk m c 0 t : S1024x1024.Idx → EReal) = blockX m c t.val := by
  obtain ⟨e0, e1, -⟩ := index_facts t
  funext j
  unfold iblk blockX
  rw [View.read_apply]
  show (V m c main_v0 : S8192x4096.Idx → EReal) (((cfg0.win 0).blk t).view.emb j) = _
  congr 1
  funext a
  apply Fin.ext
  match a with
  | ⟨0, _⟩ => show win0_0.index t 0 * 1024 + 1 * (j 0).val = 1024 * (t.val / 16 % 8) + (j 0).val; rw [e0]; omega
  | ⟨1, _⟩ => show win0_0.index t 1 * 1024 + 1 * (j 1).val = 1024 * (t.val % 4) + (j 1).val; rw [e1]; omega

theorem iblk_w (c : Dev nD) (t : Fin cfg0.N) : (iblk m c 1 t : S1024x1024.Idx → EReal) = blockW m c t.val := by
  obtain ⟨-, -, e0, e1, -⟩ := index_facts t
  funext j
  unfold iblk blockW
  rw [View.read_apply]
  show (V m c main_v12 : S4096x4096.Idx → EReal) (((cfg0.win 1).blk t).view.emb j) = _
  congr 1
  funext a
  apply Fin.ext
  match a with
  | ⟨0, _⟩ => show win0_1.index t 0 * 1024 + 1 * (j 0).val = 1024 * (t.val % 4) + (j 0).val; rw [e0]; omega
  | ⟨1, _⟩ => show win0_1.index t 1 * 1024 + 1 * (j 1).val = 1024 * (t.val / 4 % 4) + (j 1).val; rw [e1]; omega

theorem iblk_b (c : Dev nD) (t : Fin cfg0.N) : (iblk m c 2 t : S1x1024.Idx → EReal) = blockB m c t.val := by
  obtain ⟨-, -, -, -, e0, e1, -⟩ := index_facts t
  funext j
  unfold iblk blockB
  rw [View.read_apply]
  show (V m c main_v13 : S1x4096.Idx → EReal) (((cfg0.win 2).blk t).view.emb j) = _
  congr 1
  funext a
  apply Fin.ext
  match a with
  | ⟨0, _⟩ => show win0_2.index t 0 * 1 + 1 * (j 0).val = 0; rw [e0]; have hj : (j 0).val < 1 := (j 0).isLt; omega
  | ⟨1, _⟩ => show win0_2.index t 1 * 1024 + 1 * (j 1).val = 1024 * (t.val / 4 % 4) + (j 1).val; rw [e1]; omega

/-- What the scratch holds after a point that resets it, and after one that updates what the point before left. -/
def resetAt (c : Dev nD) : (n : ℕ) → n < cfg0.N → S1024x1024.Idx → EReal :=
  fun n _ => k0_pay2 (F := Ideal) (blockX m c n) (k0_pay1 (F := Ideal)) (blockW m c n)
def stepAt (c : Dev nD) : (n : ℕ) → n < cfg0.N → (S1024x1024.Idx → EReal) → S1024x1024.Idx → EReal :=
  fun n _ acc => k0_pay2 (F := Ideal) (blockX m c n) acc (blockW m c n)

/-- The carried scratch after point `n`. -/
def scratchAt (c : Dev nD) (n : ℕ) (h : n < cfg0.N) : S1024x1024.Idx → EReal := (outsAt0 m c n h).2

/-- The components of a pair that is known by name. -/
theorem fst_of_eq {α β : Type*} {p : α × β} {a : α} {b : β} (h : p = (a, b)) : p.1 = a := by rw [h]
theorem snd_of_eq {α β : Type*} {p : α × β} {a : α} {b : β} (h : p = (a, b)) : p.2 = b := by rw [h]

theorem scratch_reset (c : Dev nD) (n : ℕ) (h : n < cfg0.N) (h0 : n % 4 = 0) : scratchAt m c n h = resetAt m c n h := by
  have h1 : ¬n % 4 = 3 := by omega
  refine (snd_of_eq (outsAt0_A m c ⟨n, h⟩ h0 h1)).trans ?_
  refine (Cases.scratch_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) scM0_0 (Memref.isWhole_whole _) ((hcond0_0 ⟨n, h⟩).mpr h0) (fun hh => h1 ((hcond0_1 ⟨n, h⟩).mp hh))
    (iblk m c 0 ⟨n, h⟩) (iblk m c 1 ⟨n, h⟩) (iblk m c 2 ⟨n, h⟩)).trans ?_
  exact congrArg₂ (fun u v => k0_pay2 (F := Ideal) u (k0_pay1 (F := Ideal)) v) (iblk_x m c ⟨n, h⟩) (iblk_w m c ⟨n, h⟩)

theorem scratch_step (c : Dev nD) (n : ℕ) (h : n + 1 < cfg0.N) (h0 : ¬(n + 1) % 4 = 0) :
    scratchAt m c (n + 1) h = stepAt m c (n + 1) h (scratchAt m c n (Nat.lt_of_succ_lt h)) := by
  by_cases h1 : (n + 1) % 4 = 3
  · refine (snd_of_eq (outsAt0_C m c ⟨n + 1, h⟩ h0 h1)).trans ?_
    refine (Cases.scratch_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1)
      (iblk m c 0 ⟨n + 1, h⟩) (iblk m c 1 ⟨n + 1, h⟩) (iblk m c 2 ⟨n + 1, h⟩) (scratchAt m c n (Nat.lt_of_succ_lt h))).trans ?_
    exact congrArg₂ (fun u v => k0_pay2 (F := Ideal) u (scratchAt m c n (Nat.lt_of_succ_lt h)) v) (iblk_x m c ⟨n + 1, h⟩) (iblk_w m c ⟨n + 1, h⟩)
  · refine (snd_of_eq (outsAt0_B m c ⟨n + 1, h⟩ h0 h1)).trans ?_
    refine (Cases.scratch_middle (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh))
      (iblk m c 0 ⟨n + 1, h⟩) (iblk m c 1 ⟨n + 1, h⟩) (iblk m c 2 ⟨n + 1, h⟩) (scratchAt m c n (Nat.lt_of_succ_lt h))).trans ?_
    exact congrArg₂ (fun u v => k0_pay2 (F := Ideal) u (scratchAt m c n (Nat.lt_of_succ_lt h)) v) (iblk_x m c ⟨n + 1, h⟩) (iblk_w m c ⟨n + 1, h⟩)

/-- Point `n`'s contribution at an entry of the block: its row of activations against its column of the weight. -/
def addend (c : Dev nD) (n : ℕ) : S1024x1024.Idx → EReal :=
  fun i => ∑ e : Fin 1024, blockX m c n (ix2 (i 0) e) * blockW m c n (ix2 e (i 1))

/-- After point `n` the scratch holds the contributions of the points of `n`'s run up to `n`. -/
theorem scratch_apply (c : Dev nD) (n : ℕ) (hn : n < cfg0.N) (i : S1024x1024.Idx) :
    scratchAt m c n hn i = 0 + ∑ s ∈ Finset.range (n % 4 + 1), addend m c (4 * (n / 4) + s) i := by
  have h' : 4 * (n / 4) + n % 4 < cfg0.N := by rw [Nat.div_add_mod]; exact hn
  rw [Pipeline.eq_accAt_of_mod (scratchAt m c) 4 (resetAt m c) (stepAt m c) (scratch_reset m c) (scratch_step m c) (by decide) n hn h']
  refine Pipeline.accAt_add_apply (resetAt m c) (stepAt m c) (fun _ => (0 : EReal)) (addend m c) (4 * (n / 4)) 3 ?_ ?_ (n % 4) (by omega) h' i
  · intro h i
    obtain ⟨r, q, rfl⟩ : ∃ (r q : Fin 1024), i = ix2 r q := ⟨i 0, i 1, eq_ix2 i⟩
    unfold resetAt addend
    rw [Payload.update_apply, Payload.reset_apply]
  · intro k h acc i _ _
    obtain ⟨r, q, rfl⟩ : ∃ (r q : Fin 1024), i = ix2 r q := ⟨i 0, i 1, eq_ix2 i⟩
    unfold stepAt addend
    rw [Payload.update_apply]

/-- What a point with `n % 4 = 3` leaves in the output block: its run's whole sum, plus the bias row. -/
theorem output_apply (c : Dev nD) (t : Fin cfg0.N) (h3 : t.val % 4 = 3) (r q : Fin 1024) :
    ((outsAt0 m c t.val t.isLt).1 : S1024x1024.Idx → EReal) (ix2 r q)
      = (0 + ∑ s ∈ Finset.range 4, addend m c (4 * (t.val / 4) + s) (ix2 r q))
        + (V m c main_v13 : S1x4096.Idx → EReal) (ix2 (0 : Fin 1) (colAt t.val q)) := by
  have h0 : ¬t.val % 4 = 0 := by omega
  have e := outsAt0_C m c t h0 h3
  have e1 := (fst_of_eq e).trans (Cases.output_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h3)
    (iblk m c 0 t) (iblk m c 1 t) (iblk m c 2 t) (outsAt0 m c (t.val - 1) (Nat.lt_of_le_of_lt (Nat.sub_le _ _) t.isLt)).2)
  have e2 := (snd_of_eq e).trans (Cases.scratch_last (F := Ideal) c (grid0.coords t) (ms0_0 t) (hs0_0 t) (ms0_1 t) (hs0_1 t) (ms0_2 t) (hs0_2 t) (ms0_3 t) (hs0_3 t) scM0_0 (Memref.isWhole_whole _) (fun hh => h0 ((hcond0_0 t).mp hh)) ((hcond0_1 t).mpr h3)
    (iblk m c 0 t) (iblk m c 1 t) (iblk m c 2 t) (outsAt0 m c (t.val - 1) (Nat.lt_of_le_of_lt (Nat.sub_le _ _) t.isLt)).2)
  have e3 : ((outsAt0 m c t.val t.isLt).1 : S1024x1024.Idx → EReal) = k0_pay3 (F := Ideal) (scratchAt m c t.val t.isLt) (blockB m c t.val) :=
    e1.trans (congrArg₂ (fun u v => k0_pay3 (F := Ideal) u v) e2.symm (iblk_b m c t))
  rw [e3, Payload.output_apply, scratch_apply, h3]
  rfl

end Cert.KernelIdeal.Fold

end
-- ==== Proof.Entry.lean ====
/-
  What the pipeline finds in its three input arrays when it starts, entry by entry on the extended reals. They are
  written by the host operations that precede the call:
    the activations `x[b, s, d]` flattened to rows `2048 b + s`;
    the combined weight, `w[d, o] = t₁[o, d] · a₁[o] + t₂[o, d] · a₂[o]` — each integer plane converted, transposed and
      scaled along its columns by its scale vector (broadcast down the rows), the two added (the final change of
      float format is the identity on the extended reals);
    the bias as one row, `[0, o] ↦ bias[o]`.
-/
import proofs.«166467_j62989990363233_2_alg».proof.Proof.Gen.KernelIdeal.Frame
import proofs.«166467_j62989990363233_2_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Entry

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-- Row `2048 b + s` of the flattened activations. -/
def flatRow (b : Fin 4) (s : Fin 2048) : Fin 8192 := ⟨2048 * b.val + s.val, by have := b.isLt; have := s.isLt; omega⟩

/-- The flattened activations at `(2048 b + s, d)` are the activations at `(b, s, d)`. -/
theorem activations_apply (c : Dev nD) (b : Fin 4) (s : Fin 2048) (d : Fin 4096) :
    (V m c main_v0 : S8192x4096.Idx → EReal) (ix2 (flatRow b s) d) = m ((c : Thread nD τ).loc main_arg0) (ix3 b s d) := by
  have e : (V m c main_v0 : S8192x4096.Idx → EReal)
      = shapeCast S8192x4096 (m ((c : Thread nD τ).loc main_arg0)) shapeCasts_S4x2048x4096_S8192x4096 := by
    show StableHlo.after hostOps0 (fun b => m (c, b)) (Proc.devRef .tc main_v0) = _
    after_results
    rfl
  rw [e]
  refine shapeCast_apply _ _ _ _ ?_
  show (S4x2048x4096.rowMajor (ix3 b s d)).val = (S8192x4096.rowMajor (ix2 (flatRow b s) d)).val
  rw [Shape.rowMajor_val_three, Shape.rowMajor_val_two]
  show (b.val * 2048 + s.val) * 4096 + d.val = (2048 * b.val + s.val) * 4096 + d.val
  rw [Nat.mul_comm b.val 2048]

/-- The combined weight at `(d, o)`. -/
theorem weight_apply (c : Dev nD) (d o : Fin 4096) :
    (V m c main_v12 : S4096x4096.Idx → EReal) (ix2 d o)
      = Cert.Spec.ofInt (m ((c : Thread nD τ).loc main_arg1) (ix2 o d)) * m ((c : Thread nD τ).loc main_arg3) (ix1 o)
        + Cert.Spec.ofInt (m ((c : Thread nD τ).loc main_arg2) (ix2 o d)) * m ((c : Thread nD τ).loc main_arg4) (ix1 o) := by
  have e : (V m c main_v12 : S4096x4096.Idx → EReal)
      = truncf .bf16 (addf
          (mulf (transpose S4096x4096 [1, 0] (sitofp (F := Ideal) .f32 (m ((c : Thread nD τ).loc main_arg1))) transposes_S4096x4096_S4096x4096_1_0)
            (broadcastInDim S4096x4096 ![0, 1] bcast_S1x4096_S4096x4096_0_1 (broadcastInDim S1x4096 ![1] bcast_S4096_S1x4096_1 (m ((c : Thread nD τ).loc main_arg3)))))
          (mulf (transpose S4096x4096 [1, 0] (sitofp (F := Ideal) .f32 (m ((c : Thread nD τ).loc main_arg2))) transposes_S4096x4096_S4096x4096_1_0)
            (broadcastInDim S4096x4096 ![0, 1] bcast_S1x4096_S4096x4096_0_1 (broadcastInDim S1x4096 ![1] bcast_S4096_S1x4096_1 (m ((c : Thread nD τ).loc main_arg4))))))
          bitsLt_bf16_f32 := by
    show StableHlo.after hostOps0 (fun b => m (c, b)) (Proc.devRef .tc main_v12) = _
    after_results
  have bc : ∀ (a : (⟨S4096, .f32⟩ : BufTy).Contents (Elt Ideal)),
      broadcastInDim S4096x4096 ![0, 1] bcast_S1x4096_S4096x4096_0_1 (broadcastInDim S1x4096 ![1] bcast_S4096_S1x4096_1 a) (ix2 d o) = a (ix1 o) := fun a => by
    rw [broadcastInDim_apply _ bcast_S1x4096_S4096x4096_0_1 _ (ix2 d o) (ix2 (0 : Fin 1) o) (fun ax => match ax with
      | ⟨0, _⟩ => by show 0 = if (1 : Nat) = 1 then 0 else d.val; rw [if_pos rfl]
      | ⟨1, _⟩ => by show o.val = if (4096 : Nat) = 1 then 0 else o.val; rw [if_neg (by decide)])]
    exact broadcastInDim_apply _ bcast_S4096_S1x4096_1 a (ix2 (0 : Fin 1) o) (ix1 o) (fun ax => match ax with
      | ⟨0, _⟩ => by show o.val = if (4096 : Nat) = 1 then 0 else o.val; rw [if_neg (by decide)])
  rw [e, truncf_apply, addf_apply, mulf_apply, mulf_apply, bc, bc, transpose_ix2_apply, transpose_ix2_apply]
  rfl

/-- The bias row at `(0, o)`. -/
theorem bias_apply (c : Dev nD) (o : Fin 4096) :
    (V m c main_v13 : S1x4096.Idx → EReal) (ix2 (0 : Fin 1) o) = m ((c : Thread nD τ).loc main_arg5) (ix1 o) := by
  have e : (V m c main_v13 : S1x4096.Idx → EReal)
      = shapeCast S1x4096 (m ((c : Thread nD τ).loc main_arg5)) shapeCasts_S4096_S1x4096 := by
    show StableHlo.after hostOps0 (fun b => m (c, b)) (Proc.devRef .tc main_v13) = _
    after_results
    rfl
  rw [e]
  exact shapeCast_a_1a_apply _ _ _ _

end Cert.KernelIdeal.Entry

end
-- ==== Proof.Result.lean ====
/-
  From the blocks to the arrays.

  The output window's block at a point with innermost coordinate 3 is written back to rows `1024 (n / 16) …`, columns
  `1024 (n / 4 % 4) …` of the flat `[8192, 4096]` result, and those 32 blocks tile it; what is written is the run's whole
  sum plus the bias, which — the pipeline's three input arrays read back through the host operations that produced them —
  is the kernel's value `Spec.kerValue` at row `2048 b + s`. The host's final reshape reads entry `(b, s, o)` of the result
  at that row.
-/
import proofs.«166467_j62989990363233_2_alg».proof.Proof.Fold
import proofs.«166467_j62989990363233_2_alg».proof.Proof.Entry

set_option maxRecDepth 16384

noncomputable section

namespace Cert.KernelIdeal.Result

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The flat result: row `M` holds the kernel's value at `(M / 2048, M % 2048)`. -/
def flat (c : Dev nD) : S8192x4096.Idx → EReal := fun i =>
  Cert.Spec.kerValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ⟨(i 0).val / 2048, by have h : (i 0).val < 8192 := (i 0).isLt; omega⟩
    ⟨(i 0).val % 2048, Nat.mod_lt _ (by decide)⟩ (i 1)

/-- A run's whole sum plus the bias is the flat result at the block's rows and columns. -/
theorem block_value (c : Dev nD) (n : ℕ) (r q : Fin 1024) :
    (0 + ∑ s ∈ Finset.range 4, Fold.addend m c (4 * (n / 4) + s) (ix2 r q))
        + (V m c main_v13 : S1x4096.Idx → EReal) (ix2 (0 : Fin 1) (Fold.colAt n q))
      = flat m c (ix2 (Fold.rowAt n r) (Fold.colAt n q)) := by
  have hrow : ∀ k : Fin 4, Fold.rowAt (4 * (n / 4) + k.val) r
      = Entry.flatRow ⟨(Fold.rowAt n r).val / 2048, by have h := (Fold.rowAt n r).isLt; omega⟩ ⟨(Fold.rowAt n r).val % 2048, Nat.mod_lt _ (by decide)⟩ := fun k => Fin.ext (by
    show 1024 * ((4 * (n / 4) + k.val) / 16 % 8) + r.val = 2048 * ((1024 * (n / 16 % 8) + r.val) / 2048) + (1024 * (n / 16 % 8) + r.val) % 2048
    have := k.isLt; omega)
  have hmid : ∀ (k : Fin 4) (e : Fin 1024), Fold.midAt (4 * (n / 4) + k.val) e = Cert.Spec.chunkIdx k e := fun k e => Fin.ext (by
    show 1024 * ((4 * (n / 4) + k.val) % 4) + e.val = 1024 * k.val + e.val
    have := k.isLt; omega)
  have hcol : ∀ k : Fin 4, Fold.colAt (4 * (n / 4) + k.val) q = Fold.colAt n q := fun k => Fin.ext (by
    show 1024 * ((4 * (n / 4) + k.val) / 4 % 4) + q.val = 1024 * (n / 4 % 4) + q.val
    have := k.isLt; omega)
  unfold flat Cert.Spec.kerValue
  rw [Finset.sum_range]
  refine congrArg₂ (fun a b : EReal => a + b) ?_ ?_
  · refine congrArg (fun a : EReal => 0 + a) ?_
    refine Finset.sum_congr rfl fun k _ => ?_
    unfold Fold.addend
    refine Finset.sum_congr rfl fun e _ => ?_
    have hX : Fold.blockX m c (4 * (n / 4) + k.val) (ix2 r e)
        = m ((c : Thread nD τ).loc main_arg0) (ix3 (⟨(Fold.rowAt n r).val / 2048, by have h := (Fold.rowAt n r).isLt; omega⟩ : Fin 4)
            (⟨(Fold.rowAt n r).val % 2048, Nat.mod_lt _ (by decide)⟩ : Fin 2048) (Cert.Spec.chunkIdx k e)) := by
      unfold Fold.blockX
      show (V m c main_v0 : S8192x4096.Idx → EReal) (ix2 (Fold.rowAt (4 * (n / 4) + k.val) r) (Fold.midAt (4 * (n / 4) + k.val) e)) = _
      rw [hrow k, hmid k e]
      exact Entry.activations_apply m c _ _ _
    have hW : Fold.blockW m c (4 * (n / 4) + k.val) (ix2 e q)
        = Cert.Spec.ofInt (m ((c : Thread nD τ).loc main_arg1) (ix2 (Fold.colAt n q) (Cert.Spec.chunkIdx k e))) * m ((c : Thread nD τ).loc main_arg3) (ix1 (Fold.colAt n q))
          + Cert.Spec.ofInt (m ((c : Thread nD τ).loc main_arg2) (ix2 (Fold.colAt n q) (Cert.Spec.chunkIdx k e))) * m ((c : Thread nD τ).loc main_arg4) (ix1 (Fold.colAt n q)) := by
      unfold Fold.blockW
      show (V m c main_v12 : S4096x4096.Idx → EReal) (ix2 (Fold.midAt (4 * (n / 4) + k.val) e) (Fold.colAt (4 * (n / 4) + k.val) q)) = _
      rw [hmid k e, hcol k]
      exact Entry.weight_apply m c _ _
    rw [hX, hW]
  · exact Entry.bias_apply m c (Fold.colAt n q)

/-- What a point that writes back writes is its block of the flat result. -/
theorem flushed_eq (c : Dev nD) (t : Fin cfg0.N) (hf : (cfg0.win 3).flush t = true) :
    (dats m 0 c).flushed 3 t = ((cfg0.win 3).blk t).view.read (Elt Ideal) (flat m c) := by
  have h3 : t.val % 4 = 3 := (flush0_3 t).mp hf
  obtain ⟨-, -, -, -, -, -, e0, e1⟩ := Fold.index_facts t
  show (cfg0.win 3).cut (grid0.coords t) ((dats m 0 c).after 3 t) = _
  rw [after0_3]
  funext j
  obtain ⟨r, q, rfl⟩ : ∃ (r q : Fin 1024), j = ix2 r q := ⟨j 0, j 1, eq_ix2 j⟩
  have hemb : ((cfg0.win 3).blk t).view.emb (ix2 r q) = ix2 (Fold.rowAt t.val r) (Fold.colAt t.val q) := by
    funext a
    apply Fin.ext
    match a with
    | ⟨0, _⟩ => show win0_3.index t 0 * 1024 + 1 * r.val = 1024 * (t.val / 16 % 8) + r.val; rw [e0]; omega
    | ⟨1, _⟩ => show win0_3.index t 1 * 1024 + 1 * q.val = 1024 * (t.val / 4 % 4) + q.val; rw [e1]; omega
  show ((outsAt0 m c t.val t.isLt).1 : S1024x1024.Idx → EReal) (ix2 r q) = flat m c (((cfg0.win 3).blk t).view.emb (ix2 r q))
  rw [hemb, Fold.output_apply m c t h3 r q]
  exact block_value m c t.val r q

/-- Every entry of the flat result lies in the block of the point with its row block, its column block and
    innermost coordinate 3. -/
theorem covered (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  let t : Fin cfg0.N := ⟨16 * ((i 0).val / 1024) + 4 * ((i 1).val / 1024) + 3, by rw [hN]; omega⟩
  have ht : t.val = 16 * ((i 0).val / 1024) + 4 * ((i 1).val / 1024) + 3 := rfl
  obtain ⟨-, -, -, -, -, -, e0, e1⟩ := Fold.index_facts t
  refine ⟨t, (flush0_3 t).mpr (by rw [ht]; omega), ?_⟩
  show i ∈ ((View.whole main_v14).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [e0, ht]; omega
  | ⟨1, _⟩ =>
    show win0_3.index t 1 * 1024 ≤ (i 1).val ∧ (i 1).val < win0_3.index t 1 * 1024 + 1024
    rw [e1, ht]; omega

/-- So the flat result array ends holding `flat`. -/
theorem final (c : Dev nD) : (dats m 0 c).arrAt 3 cfg0.N = flat m c :=
  (dats m 0 c).arrAt_eq_of_cover 3 (flat m c) (flushed_eq m c) covered

/-- The kernel's result as one function of the result's index. -/
def kerArray (c : Dev nD) : S4x2048x4096.Idx → EReal := fun i =>
  Cert.Spec.kerValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) (i 2)

/-- The host's final reshape of the flat result. -/
theorem tail_eq (c : Dev nD) :
    Pipeline.afterTail₀ cfgs (dats m) 0 (V0 m) [hostOps1] c main_v15 = kerArray m c := by
  unfold Pipeline.afterTail₀
  show StableHlo.after hostOps1 _ (Proc.devRef .tc main_v15) = _
  after_results
  have hw := (Pipeline.withArrays_arr spec0 launch0.win.arr_inj c (V0 m c) (fun w => (dats m 0 c).arrAt w cfg0.N) 3).trans (final m c)
  funext i
  obtain ⟨b, s, o, rfl⟩ : ∃ (b : Fin 4) (s : Fin 2048) (o : Fin 4096), i = ix3 b s o := ⟨i 0, i 1, i 2, eq_ix3 i⟩
  refine (congrArg (fun X : S8192x4096.Idx → EReal => shapeCast S4x2048x4096 X shapeCasts_S8192x4096_S4x2048x4096 (ix3 b s o)) hw).trans ?_
  refine (shapeCast_apply (flat m c) shapeCasts_S8192x4096_S4x2048x4096 (ix3 b s o) (ix2 (Entry.flatRow b s) o) ?_).trans ?_
  · show (S8192x4096.rowMajor (ix2 (Entry.flatRow b s) o)).val = (S4x2048x4096.rowMajor (ix3 b s o)).val
    rw [Shape.rowMajor_val_three, Shape.rowMajor_val_two]
    show (2048 * b.val + s.val) * 4096 + o.val = (b.val * 2048 + s.val) * 4096 + o.val
    rw [Nat.mul_comm b.val 2048]
  · unfold flat kerArray
    have hb : (⟨(2048 * b.val + s.val) / 2048, by have := b.isLt; have := s.isLt; omega⟩ : Fin 4) = b := Fin.ext (by have := s.isLt; show (2048 * b.val + s.val) / 2048 = b.val; omega)
    have hs : (⟨(2048 * b.val + s.val) % 2048, Nat.mod_lt _ (by decide)⟩ : Fin 2048) = s := Fin.ext (by have := s.isLt; show (2048 * b.val + s.val) % 2048 = s.val; omega)
    show Cert.Spec.kerValue _ _ _ _ _ _ ⟨(2048 * b.val + s.val) / 2048, _⟩ ⟨(2048 * b.val + s.val) % 2048, _⟩ o = Cert.Spec.kerValue _ _ _ _ _ _ b s o
    rw [hb, hs]

/-- The run, read: the result at the kernel's value, the arguments unchanged. -/
theorem run : θ_run defs (onTc (τ := τ) (main (F := Ideal))) ⟨m, fun _ => 0, ρ⟩ fun r => ∀ c : Dev nD,
      r.2.mem ((c.tc : Thread nD τ).loc main_v15) = kerArray m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  The certificate's claim, assembled.

  The kernel computes `y = x · W + bias` with the combined weight `W[d, o] = t₁[o, d] · a₁[o] + t₂[o, d] · a₂[o]`, contracting
  in four chunks of 1024 over a grid that carries a running block; the reference computes
  `y = (x · t₁ᵀ) · a₁ + (x · t₂ᵀ) · a₂ + bias`. On the extended reals both are functions of the argument arrays
  (`Spec.kerValue`, `Spec.refValue`) and they agree where the activations and the scales are real numbers, because
  there multiplication distributes over the contraction's sum; the precondition says exactly that every float input is
  finite. The three frames are the generated ones (the reference's is its run with the result dropped), and the
  idealization rewrote nothing, so `preserves` is trivial.
-/
import proofs.«166467_j62989990363233_2_alg».proof.Defs
import proofs.«166467_j62989990363233_2_alg».proof.Proof.Gen.Kernel
import proofs.«166467_j62989990363233_2_alg».proof.Proof.Gen.Kernel.Skeleton
import proofs.«166467_j62989990363233_2_alg».proof.Proof.Gen.Kernel.Launch
import proofs.«166467_j62989990363233_2_alg».proof.Proof.Gen.Kernel.Points
import proofs.«166467_j62989990363233_2_alg».proof.Proof.Gen.Kernel.Frame
import proofs.«166467_j62989990363233_2_alg».proof.Proof.Gen.KernelIdeal
import proofs.«166467_j62989990363233_2_alg».proof.Proof.Gen.KernelIdeal.Skeleton
import proofs.«166467_j62989990363233_2_alg».proof.Proof.Gen.KernelIdeal.Launch
import proofs.«166467_j62989990363233_2_alg».proof.Proof.Gen.KernelIdeal.Points
import proofs.«166467_j62989990363233_2_alg».proof.Proof.Gen.KernelIdeal.Frame
import proofs.«166467_j62989990363233_2_alg».proof.Proof.Gen.ReferenceIdeal
import proofs.«166467_j62989990363233_2_alg».proof.Proof.Gen.Pre_finite_inputs
import proofs.«166467_j62989990363233_2_alg».proof.Proof.Gen.ReferenceIdeal.Run
import proofs.«166467_j62989990363233_2_alg».proof.Proof.Gen.ReferenceIdeal.Read
import proofs.«166467_j62989990363233_2_alg».proof.Proof.Spec
import proofs.«166467_j62989990363233_2_alg».proof.Proof.Finite
import proofs.«166467_j62989990363233_2_alg».proof.Proof.RefValue
import proofs.«166467_j62989990363233_2_alg».proof.Proof.Result
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the kernel's value of arguments that agree: the kernel's run by the blocks-to-array reading of its
    frame run, the reference's by its run read index by index and the distributive law under the precondition. -/
theorem algebraic : Cert.algebraic_KernelIdeal_ReferenceIdeal := by
  intro m ρ m' ρ' hpre hagree
  refine ⟨fun c => Cert.KernelIdeal.Result.kerArray m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2.1, (hagree c).2.2.2.2.1, (hagree c).2.2.2.2.2]
  obtain ⟨hx, h₁, h₂, -⟩ := Cert.Finite.finite_of_pre _ _ _ _ _ _ (hpre c)
  funext i
  exact (Cert.Spec.kerValue_eq_refValue _ _ _ _ _ _ hx h₁ h₂ (i 0) (i 1) (i 2)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
